-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x1024 : Shape := ⟨3, ![32, 256, 1024]⟩
abbrev S1024x1024 : Shape := ⟨2, ![1024, 1024]⟩
abbrev S1024 : Shape := ⟨1, ![1024]⟩
abbrev S32x1024x1024 : Shape := ⟨3, ![32, 1024, 1024]⟩
abbrev S32x1024 : Shape := ⟨2, ![32, 1024]⟩
abbrev S_ : Shape := ⟨0, ![]⟩

class Facts : Prop where
  bcast_S_S32x256x1024 : S_.BroadcastsInDim S32x256x1024 (![] : Fin 0 → Fin S32x256x1024.rank)
  reducesTo_S32x256x1024_S_d0_1_2 : S32x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S32x1024 : S_.BroadcastsInDim S32x1024 (![] : Fin 0 → Fin S32x1024.rank)
  reducesTo_S32x1024_S_d0_1 : S32x1024.ReducesTo [0, 1] S_

variable [Facts]

def fn_part1 {F : FTy → Type} [FloatOps F] (main_arg4 : FVec F S1024 .f32) (main_arg5 : FVec F S32x1024x1024 .f32) (main_arg6 : FVec F S32x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S32x1024x1024 .f32 := Host.absf main_arg5
  let main_cst_8 : FVec F S_ .f32 := constant S_ .f32 0x7F800000#32
  let main_v25 : FVec F S32x1024x1024 .f32 := broadcastInDim S32x1024x1024 ![] bcast_S_S32x1024x1024 main_cst_8
  let main_v26 : IVec S32x1024x1024 1 := cmpf .olt main_v24 main_v25
  let main_c_9 : IVec S_ 1 := constantI S_ 1 1#1
  let main_v27 : IVec S_ 1 := (fun x v => Host.reduce IntOp.andi x v reducesTo_S32x1024x1024_S_d0_1_2 h_S_) main_v26 main_c_9
  let main_v28 : IVec S_ 1 := andi main_v23 main_v27
  let main_v29 : FVec F S32x1024 .f32 := Host.absf main_arg6
  let main_cst_10 : FVec F S_ .f32 := constant S_ .f32 0x7F800000#32
  let main_v30 : FVec F S32x1024 .f32 := broadcastInDim S32x1024 ![] bcast_S_S32x1024 main_cst_10
  let main_v31 : IVec S32x1024 1 := cmpf .olt main_v29 main_v30
  let main_c_11 : IVec S_ 1 := constantI S_ 1 1#1
  let main_v32 : IVec S_ 1 := (fun x v => Host.reduce IntOp.andi x v reducesTo_S32x1024_S_d0_1 h_S_) main_v31 main_c_11
  let main_v33 : IVec S_ 1 := andi main_v28 main_v32
  main_v33

def fn {F : FTy → Type} [FloatOps F] (main_arg0 : FVec F S32x256x1024 .f32) (main_arg1 : FVec F S1024x1024 .f32) (main_arg2 : FVec F S1024x1024 .f32) (main_arg3 : FVec F S1024 .f32) (main_arg4 : FVec F S1024 .f32) (main_arg5 : FVec F S32x1024x1024 .f32) (main_arg6 : FVec F S32x1024 .f32) : IVec S_ 1 :=
  let main_v0 : FVec F S32x256x1024 .f32 := Host.absf main_arg0
  let main_cst : FVec F S_ .f32 := constant S_ .f32 0x7F800000#32
  let main_v1 : FVec F S32x256x1024 .f32 := broadcastInDim S32x256x1024 ![] bcast_S_S32x256x1024 main_cst
  let main_v2 : IVec S32x256x1024 1 := cmpf .olt main_v0 main_v1
  let main_c : IVec S_ 1 := constantI S_ 1 1#1
  let main_v3 : IVec S_ 1 := (fun x v => Host.reduce IntOp.andi x v reducesTo_S32x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_v13 main_v16
-- ==== Kernel.lean ====
abbrev S32x256x1024 : Shape := ⟨3, ![32, 256, 1024]⟩
abbrev S1024x1024 : Shape := ⟨2, ![1024, 1024]⟩
abbrev S1024 : Shape := ⟨1, ![1024]⟩
abbrev S32x1024x1024 : Shape := ⟨3, ![32, 1024, 1024]⟩
abbrev S32x1024 : Shape := ⟨2, ![32, 1024]⟩
abbrev S32x1x1024 : Shape := ⟨3, ![32, 1, 1024]⟩
abbrev S1x256x1024 : Shape := ⟨3, ![1, 256, 1024]⟩
abbrev S1x1024x1024 : Shape := ⟨3, ![1, 1024, 1024]⟩
abbrev S1x1x1024 : Shape := ⟨3, ![1, 1, 1024]⟩
abbrev S256x1024 : Shape := ⟨2, ![256, 1024]⟩
abbrev S1x1024 : Shape := ⟨2, ![1, 1024]⟩

abbrev nBuf : Space → Nat
  | .hbm => 9
  | .vmem => 12
  | .smem => 0
  | _ => 0

abbrev bufTy : (tb : Table) → Fin (tcTables nBuf tb) → BufTy
  | .hbm, ⟨0, _⟩ => ⟨S32x256x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S32x1024x1024, .f32⟩
  | .hbm, ⟨6, _⟩ => ⟨S32x1024, .f32⟩
  | .hbm, ⟨7, _⟩ => ⟨S32x1x1024, .f32⟩
  | .hbm, ⟨8, _⟩ => ⟨S32x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .f32⟩
  | .local _ .vmem, ⟨3, _⟩ => ⟨S1024x1024, .f32⟩
  | .local _ .vmem, ⟨4, _⟩ => ⟨S1024, .f32⟩
  | .local _ .vmem, ⟨5, _⟩ => ⟨S1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x256x1024, .f32⟩
  | .local _ .vmem, ⟨11, _⟩ => ⟨S1x256x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S32x1024_S32x1x1024 : S32x1024.ShapeCasts S32x1x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024_S1024_0 : ∀ a, (![0] : Fin 1 → Nat) a + S1024.size a ≤ S1024.size a
  h_S1024 : 0 < S1024.numel
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  bitsLt_bf16_f32 : FTy.bits .bf16 < FTy.bits .f32
  shapeCasts_S1024_S1x1024 : S1024.ShapeCasts S1x1024
  broadcasts_S1x1024_S256x1024 : S1x1024.Broadcasts S256x1024
  shapeCasts_S256x1024_S1x256x1024 : S256x1024.ShapeCasts S1x256x1024
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x256x1024.size a
  hwx0_0 : ∀ i : grid0.Coords, EltTy.bits .f32 = 32 ∨ (Rect.block (s := S32x256x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S32x1024x1024.size a
  hwx0_5 : ∀ i : grid0.Coords, EltTy.bits .f32 = 32 ∨ (Rect.block (s := S32x1024x1024) S1x1024x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S32x1x1024.size a
  hwx0_6 : ∀ i : grid0.Coords, EltTy.bits .f32 = 32 ∨ (Rect.block (s := S32x1x1024) S1x1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1024.size a ≤ S32x256x1024.size a
  hwx0_7 : ∀ i : grid0.Coords, EltTy.bits .f32 = 32 ∨ (Rect.block (s := S32x256x1024) S1x256x1024.size (cc0_transform_7 i) (hinb0_7 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1024x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x256x1024 : Shape := ⟨3, ![32, 256, 1024]⟩
abbrev S1024x1024 : Shape := ⟨2, ![1024, 1024]⟩
abbrev S1024 : Shape := ⟨1, ![1024]⟩
abbrev S32x1024x1024 : Shape := ⟨3, ![32, 1024, 1024]⟩
abbrev S32x1024 : Shape := ⟨2, ![32, 1024]⟩
abbrev S_ : Shape := ⟨0, ![]⟩
abbrev S1x1024x1024 : Shape := ⟨3, ![1, 1024, 1024]⟩
abbrev S1x1024 : Shape := ⟨2, ![1, 1024]⟩
abbrev S32x1x1024 : Shape := ⟨3, ![32, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S32x1024x1024, .f32⟩
  | .hbm, ⟨6, _⟩ => ⟨S32x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .i1⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .i1⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S1x1024x1024, .f32⟩
  | .hbm, ⟨36, _⟩ => ⟨S1x1024x1024, .f32⟩
  | .hbm, ⟨37, _⟩ => ⟨S32x1024x1024, .f32⟩
  | .hbm, ⟨38, _⟩ => ⟨S32x1024x1024, .f32⟩
  | .hbm, ⟨39, _⟩ => ⟨S32x1024x1024, .f32⟩
  | .hbm, ⟨40, _⟩ => ⟨S32x1024x1024, .f32⟩
  | .hbm, ⟨41, _⟩ => ⟨S1x1024, .f32⟩
  | .hbm, ⟨42, _⟩ => ⟨S1x1024, .f32⟩
  | .hbm, ⟨43, _⟩ => ⟨S32x1024, .f32⟩
  | .hbm, ⟨44, _⟩ => ⟨S32x1024, .f32⟩
  | .hbm, ⟨45, _⟩ => ⟨S32x1024, .f32⟩
  | .hbm, ⟨46, _⟩ => ⟨S32x1024, .f32⟩
  | .hbm, ⟨47, _⟩ => ⟨S32x256x1024, .f32⟩
  | .hbm, ⟨48, _⟩ => ⟨S32x1x1024, .f32⟩
  | .hbm, ⟨49, _⟩ => ⟨S32x256x1024, .f32⟩
  | .hbm, ⟨50, _⟩ => ⟨S32x256x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v0 : Ref sig .tc := ⟨.hbm, 20, rfl⟩
abbrev main_call1_cst : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S_S1024 : S_.BroadcastsInDim S1024 (![] : Fin 0 → Fin S1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S32x1024_S32x1x1024_0_2 : S32x1024.BroadcastsInDim S32x1x1024 (![0, 2] : Fin 2 → Fin S32x1x1024.rank)
  bcast_S32x1x1024_S32x256x1024_0_1_2 : S32x1x1024.BroadcastsInDim S32x256x1024 (![0, 1, 2] : Fin 3 → Fin S32x256x1024.rank)
  dot_S32x256x1024_S32x1024x1024_S32x256x1024_2_2_1_1_0_0_wf : DotDims.WF S32x256x1024 S32x1024x1024 S32x256x1024 [2] [2] [1] [1] [0] [0]

variable [Facts₀]

def dot_S32x256x1024_S32x1024x1024_S32x256x1024_2_2_1_1_0_0 : DotDims S32x256x1024 S32x1024x1024 S32x256x1024 where
  lhsContracting := [2]
  rhsContracting := [2]
  lhsNonContracting := [1]
  rhsNonContracting := [1]
  lhsBatch := [0]
  rhsBatch := [0]
  wf := dot_S32x256x1024_S32x1024x1024_S32x256x1024_2_2_1_1_0_0_wf

class Facts : Prop extends Facts₀ where

variable [Facts]
-- ==== Proof.Spec.lean ====
/-
  The function both programs compute, over the extended reals.

  For a sample s, a batch row b and an output feature o,

      out(s, b, o) = Σ_{k < 1024} x(s, b, k) · ( μ(o, k) + softplus(ρ(o, k)) · ε(s, o, k) )
                     + ( β(o) + softplus(γ(o)) · η(s, o) ),

  where softplus is written in its overflow-free form  max(r, 0) + log1p(exp(−|r|))  with |r| = max(r, −r).
  Both programs guard that form by a test "r − 0 ≠ r − 0" (true only of a NaN, of which the extended reals have
  none), so the guard always takes the stable branch; and one of them writes −|r| as 0 − |r|, which is the same
  extended real.  These two facts are all that separates the two printed scalar expressions from `softplus`.
-/
import Idealize.ShloMosaic.PureOps.Ideal.Laws
import Idealize.ShloMosaic.Lib.ValueIdx

noncomputable section

open scoped BigOperators

namespace Cert.DenseVar

open Idealize.ShloMosaic Idealize.ShloMosaic.ValueIdx

/-- log(1 + e^r) in the form that never exponentiates a positive number: max(r, 0) + log1p(exp(−max(r, −r))). -/
def softplus (r : EReal) : EReal := max r 0 + Ideal.log1p (Ideal.exp (-(max r (-r))))

/-- No extended real differs from itself, under either spelling of "not equal". -/
theorem cmp_ne_self (a : EReal) : Ideal.cmp .one a a = 0#1 ∧ Ideal.cmp .une a a = 0#1 := by
  constructor <;> simp [Ideal.cmp]

/-- The guarded expression that writes −|d| as the negation of |d|. -/
theorem softplus_of_neg (r : Ideal .f32) :
    Scalar.select (FloatOps.cmpf .une (FloatOps.subf r (FloatOps.ofBits .f32 0x00000000#32)) (FloatOps.subf r (FloatOps.ofBits .f32 0x00000000#32)))
      (FloatOps.addf r (FloatOps.ofBits .f32 0x00000000#32))
      (FloatOps.addf (FloatOps.maximumf r (FloatOps.ofBits .f32 0x00000000#32))
        (FloatOps.hostUnary .log1p (FloatOps.hostUnary .exp (FloatOps.hostNegf (FloatOps.hostAbsf (FloatOps.subf r (FloatOps.ofBits .f32 0x00000000#32)))))))
      = softplus r := by
  show Scalar.select (Ideal.cmp .une (r - Ideal.ofBits .f32 0x00000000#32) (r - Ideal.ofBits .f32 0x00000000#32)) _ _ = _
  rw [(cmp_ne_self _).2, select_zero]
  show max r (Ideal.ofBits .f32 0x00000000#32) + Ideal.log1p (Ideal.exp (-(max (r - Ideal.ofBits .f32 0x00000000#32) (-(r - Ideal.ofBits .f32 0x00000000#32))))) = _
  rw [Ideal.ofBits_zero_f32, sub_zero]
  rfl

/-- The guarded expression that writes −|d| as 0 − |d|. -/
theorem softplus_of_sub (r : Ideal .f32) :
    Scalar.select (FloatOps.cmpf .one (FloatOps.subf r (FloatOps.ofBits .f32 0x00000000#32)) (FloatOps.subf r (FloatOps.ofBits .f32 0x00000000#32)))
      (FloatOps.addf r (FloatOps.ofBits .f32 0x00000000#32))
      (FloatOps.addf (FloatOps.maximumf r (FloatOps.ofBits .f32 0x00000000#32))
        (FloatOps.log1p (FloatOps.exp (FloatOps.subf (FloatOps.ofBits .f32 0x00000000#32) (FloatOps.absf (FloatOps.subf r (FloatOps.ofBits .f32 0x00000000#32)))))))
      = softplus r := by
  show Scalar.select (Ideal.cmp .one (r - Ideal.ofBits .f32 0x00000000#32) (r - Ideal.ofBits .f32 0x00000000#32)) _ _ = _
  rw [(cmp_ne_self _).1, select_zero]
  show max r (Ideal.ofBits .f32 0x00000000#32) + Ideal.log1p (Ideal.exp (Ideal.ofBits .f32 0x00000000#32 - (max (r - Ideal.ofBits .f32 0x00000000#32) (-(r - Ideal.ofBits .f32 0x00000000#32))))) = _
  rw [Ideal.ofBits_zero_f32, sub_zero, zero_sub]
  rfl

/-- The sampled weight: the mean plus the softplus of the spread parameter times the noise. -/
def weight (mu rho eps : EReal) : EReal := mu + softplus rho * eps

/-- The result as one function of the seven argument arrays, index by index. -/
def result (x : (⟨3, ![32, 256, 1024]⟩ : Shape).Idx → EReal)
    (wmu wrho : (⟨2, ![1024, 1024]⟩ : Shape).Idx → EReal)
    (bmu brho : (⟨1, ![1024]⟩ : Shape).Idx → EReal)
    (epsw : (⟨3, ![32, 1024, 1024]⟩ : Shape).Idx → EReal)
    (epsb : (⟨2, ![32, 1024]⟩ : Shape).Idx → EReal) :
    (⟨3, ![32, 256, 1024]⟩ : Shape).Idx → EReal := fun j =>
  (∑ k : Fin 1024, x (ix3 (j 0) (j 1) k) * weight (wmu (ix2 (j 2) k)) (wrho (ix2 (j 2) k)) (epsw (ix3 (j 0) (j 2) k)))
    + weight (bmu (ix1 (j 2))) (brho (ix1 (j 2))) (epsb (ix2 (j 0) (j 2)))

/-- `result` at the entry of sample s, batch row b, output feature o. -/
theorem result_apply (x : (⟨3, ![32, 256, 1024]⟩ : Shape).Idx → EReal)
    (wmu wrho : (⟨2, ![1024, 1024]⟩ : Shape).Idx → EReal)
    (bmu brho : (⟨1, ![1024]⟩ : Shape).Idx → EReal)
    (epsw : (⟨3, ![32, 1024, 1024]⟩ : Shape).Idx → EReal)
    (epsb : (⟨2, ![32, 1024]⟩ : Shape).Idx → EReal) (s : Fin 32) (b : Fin 256) (o : Fin 1024) :
    result x wmu wrho bmu brho epsw epsb (ix3 s b o)
      = (∑ k : Fin 1024, x (ix3 s b k) * weight (wmu (ix2 o k)) (wrho (ix2 o k)) (epsw (ix3 s o k)))
        + weight (bmu (ix1 o)) (brho (ix1 o)) (epsb (ix2 s o)) := rfl

end Cert.DenseVar

end
-- ==== Proof.LibMatmulNT.lean ====
/-
  A matrix product whose right operand is contracted on its last axis, read at an index, over the extended reals.

  For the dimension numbers of an M×K by N×K product (contract the left operand's axis 1 with the right operand's
  axis 1, no batch axes: the product of the left matrix with the transpose of the right one), the product accumulated
  into the zero matrix has, at row `p` and column `q`, the entry  Σ_{k < K} lhs(p, k) · rhs(q, k):  the left index
  keeps the row and takes the contraction coordinate as its column, the right index takes the output's column as
  its row and the contraction coordinate as its column. Generic in M, K, N and in the operands' formats.
-/
import Idealize.ShloMosaic.PureOps.Ideal.Laws
import Idealize.ShloMosaic.Lib.ValueIdx

noncomputable section

open scoped BigOperators

namespace Cert.LibMatmulNT

open Idealize.ShloMosaic Idealize.ShloMosaic.ValueIdx

variable {M K N : Nat}

/-- The left index keeps the output's row. -/
theorem nt_lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton_self _)]
  rfl

/-- The left index's column is the contraction coordinate. -/
theorem nt_lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- The right index's row is the output's column. -/
theorem nt_rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton_self _)]
  rfl

/-- The right index's column is the contraction coordinate. -/
theorem nt_rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- THE PRODUCT AT AN ENTRY: a matrix product contracting both operands' last axes, accumulated into the zero matrix,
    is at `(p, q)` the sum over the contracted axis of the operands' products. The dimension numbers are passed as any
    record equal to `DotDims.transposedRhs M K N` (a printed record with the same six lists is, by `rfl`). -/
theorem matmul_nt_zero_apply {φ₁ φ₂ : FTy} (D : DotDims ⟨2, ![M, K]⟩ ⟨2, ![N, K]⟩ ⟨2, ![M, N]⟩)
    (hD : D = DotDims.transposedRhs M K N) (prec : Option ContractPrecision)
    (lhs : FVec Ideal ⟨2, ![M, K]⟩ φ₁) (rhs : FVec Ideal ⟨2, ![N, K]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 q k) := by
  subst hD
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact nt_lhs_row _ _
      | ⟨1, _⟩ => exact (nt_lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact nt_rhs_row _ _
      | ⟨1, _⟩ => exact (nt_rhs_col _ _).trans hk)
  rw [el, er]

end Cert.LibMatmulNT

end
-- ==== Proof.KernelBlock.lean ====
/-
  What one grid point stores, entry by entry, as a function of the seven blocks it is given.

  A grid point receives one sample's input block [1, 256, 1024], the two weight parameter matrices [1024, 1024], the
  two bias parameter vectors [1024], that sample's weight noise [1, 1024, 1024] and bias noise [1, 1, 1024].  It drops
  the unit axes, forms  W(o, k) = μ(o, k) + softplus(ρ(o, k)) · ε(o, k)  and  c(o) = β(o) + softplus(γ(o)) · η(o),
  multiplies the input block by the transpose of W (both operands contracted on their last axis, accumulated from
  zero; the change of float format before the product is the identity on the extended reals), adds the row c to
  every batch row, and stores the result with a unit axis put back.  So the stored block at (·, b, o) is
  Σ_k x(0, b, k) · W(o, k) + c(o).
-/
import proofs.«178021_j62577673502970_2_alg».proof.Proof.Gen.KernelIdeal.Frame
import proofs.«178021_j62577673502970_2_alg».proof.Proof.Spec
import proofs.«178021_j62577673502970_2_alg».proof.Proof.LibMatmulNT
import Idealize.ShloMosaic.Lib.Pipeline.Value
import Idealize.ShloMosaic.Lib.ValueLayout

noncomputable section

open scoped BigOperators

namespace Cert.DenseVar.KernelBlock

open Cert.KernelIdeal Cert.KernelIdeal.Gen Idealize.ShloMosaic Idealize.ShloMosaic.ValueIdx Cert.DenseVar

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- The input block with its unit sample axis dropped. -/
theorem input_entry (x0 : Vec Ideal S1x256x1024 .f32) (b : Fin 256) (k : Fin 1024) :
    k0_pay2 (F := Ideal) x0 (ix2 b k) = x0 (ix3 (0 : Fin 1) b k) :=
  shapeCast_1ab_ab_apply x0 _ b k

/-- The sampled weight matrix at (o, k). -/
theorem weight_entry (x1 x2 : Vec Ideal S1024x1024 .f32) (x5 : Vec Ideal S1x1024x1024 .f32) (o k : Fin 1024) :
    k0_pay3 (F := Ideal) x1 x2 x5 (ix2 o k) = weight (x1 (ix2 o k)) (x2 (ix2 o k)) (x5 (ix3 (0 : Fin 1) o k)) := by
  have hc : shapeCast S1024x1024 x5 shapeCasts_S1x1024x1024_S1024x1024 (ix2 o k) = x5 (ix3 (0 : Fin 1) o k) :=
    shapeCast_1ab_ab_apply x5 _ o k
  have hs := softplus_of_sub (x2 (ix2 o k))
  exact congrArg₂ (fun t e => x1 (ix2 o k) + t * e) hs hc

/-- The bias noise with its two unit axes dropped. -/
theorem noise_entry (x6 : Vec Ideal S1x1x1024 .f32) (o : Fin 1024) :
    k0_pay4 (F := Ideal) x6 (ix1 o) = x6 (ix3 (0 : Fin 1) (0 : Fin 1) o) :=
  shapeCast_apply x6 _ _ _ (by
    rw [Shape.rowMajor_val_three, Shape.rowMajor_val_one]
    show (0 * 1 + 0) * 1024 + o.val = o.val
    omega)

/-- The softplus of the bias spread parameter at o. -/
theorem spread_entry (x4 : Vec Ideal S1024 .f32) (o : Fin 1024) :
    k0_pay5 (F := Ideal) x4 (ix1 o) = softplus (x4 (ix1 o)) :=
  softplus_of_sub (x4 (ix1 o))

/-- The stored value from its five intermediate values: the product with the transposed weight matrix plus the
    bias row, at (·, b, o). -/
theorem store_entry (v1 : FVec Ideal S256x1024 .f32) (v21 : FVec Ideal S1024x1024 .f32) (v22 v25 v39 : FVec Ideal S1024 .f32)
    (u : Fin 1) (b : Fin 256) (o : Fin 1024) :
    k0_pay1 (F := Ideal) v1 v21 v22 v25 v39 (ix3 u b o)
      = (∑ k : Fin 1024, v1 (ix2 b k) * v21 (ix2 o k)) + (v22 (ix1 o) + v39 (ix1 o) * v25 (ix1 o)) := by
  unfold k0_pay1
  refine (shapeCast_ab_1ab_apply _ _ u b o).trans ?_
  have hm := Cert.LibMatmulNT.matmul_nt_zero_apply dot_S256x1024_S1024x1024_S256x1024_1_1_0_0_n_n rfl none
    (truncf .bf16 v1 bitsLt_bf16_f32) (truncf .bf16 v21 bitsLt_bf16_f32) b o
  have hb : broadcastTo S256x1024 (shapeCast S1x1024 (addf v22 (mulf v39 v25)) shapeCasts_S1024_S1x1024) broadcasts_S1x1024_S256x1024 (ix2 b o)
      = (addf v22 (mulf v39 v25)) (ix1 o) :=
    (broadcastTo_1b_ab_apply _ _ b o).trans (shapeCast_a_1a_apply _ _ (0 : Fin 1) o)
  exact congrArg₂ (fun t e => t + e) hm hb

/-- THE STORED BLOCK AT AN ENTRY, from the seven blocks the point is given. -/
theorem out_entry (x0 : Vec Ideal S1x256x1024 .f32) (x1 x2 : Vec Ideal S1024x1024 .f32) (x3 x4 : Vec Ideal S1024 .f32)
    (x5 : Vec Ideal S1x1024x1024 .f32) (x6 : Vec Ideal S1x1x1024 .f32) (u : Fin 1) (b : Fin 256) (o : Fin 1024) :
    out0_7 (F := Ideal) x0 x1 x2 x3 x4 x5 x6 (ix3 u b o)
      = (∑ k : Fin 1024, x0 (ix3 (0 : Fin 1) b k) * weight (x1 (ix2 o k)) (x2 (ix2 o k)) (x5 (ix3 (0 : Fin 1) o k)))
        + weight (x3 (ix1 o)) (x4 (ix1 o)) (x6 (ix3 (0 : Fin 1) (0 : Fin 1) o)) := by
  unfold out0_7
  rw [View.canon_unit_zero zeros3]
  simp only [View.ld_unit_zero (S := S1x256x1024) zeros3, View.ld_unit_zero (S := S1024x1024) zeros2,
    View.ld_unit_zero (S := S1x1024x1024) zeros3, View.ld_unit_zero (S := S1024) zeros1,
    View.ld_unit_zero (S := S1x1x1024) zeros3]
  rw [store_entry]
  simp only [input_entry, weight_entry, noise_entry, spread_entry]
  rfl

end Cert.DenseVar.KernelBlock

end
-- ==== Proof.KernelValue.lean ====
/-
  The kernel's result array after the run is `result` of its arguments.

  The grid has one axis of 32 points, one per sample.  At point t the input window holds sample t's [256, 1024]
  slab, the weight-noise window sample t's [1024, 1024] slab, the bias-noise window row t of the bias noise (laid
  out beforehand as [32, 1, 1024], which only renames (s, o) to (s, 0, o)), the four parameter windows the whole
  parameter arrays, and the output window writes back slab t of the result.  So what point t writes back is slab t
  of `result`; the 32 slabs cover the result array; hence the array ends holding `result`.
-/
import proofs.«178021_j62577673502970_2_alg».proof.Proof.Gen.KernelIdeal.Value
import proofs.«178021_j62577673502970_2_alg».proof.Proof.KernelBlock
import Idealize.ShloMosaic.Lib.StableHlo.Run

noncomputable section

open scoped BigOperators

namespace Cert.DenseVar.KernelValue

open Cert.KernelIdeal Cert.KernelIdeal.Gen Idealize.ShloMosaic Idealize.ShloMosaic.TcCoe Idealize.SL.Sem
open Idealize.ShloMosaic.ValueIdx Cert.DenseVar
open Idealize.ShloMosaic.Pipeline (Dat)

variable (m : (ℓ : Loc nD τ sig) → Buf (Elt Ideal) ℓ) (ρ : Dev nD → PrngReg)

/-- The sample a grid point works on. -/
def sample (t : Fin cfg0.N) : Fin 32 := ⟨t.val, lt_of_lt_of_eq t.isLt N_0⟩

/-- The block index of every window at every point, decided over the 32 points: the three per-sample windows and
    the output window move along their leading axis with the point; the four parameter windows stay at the origin. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ win0_3.index t (0 : Fin 1) = 0
    ∧ win0_4.index t (0 : Fin 1) = 0
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

/-! ## Each window's block at a point, read off its argument array -/

/-- The input window at point t holds sample t's slab. -/
theorem input_block (c : Dev nD) (t : Fin cfg0.N) (u : Fin 1) (b : Fin 256) (k : Fin 1024) :
    (iblk m c 0 t : Vec Ideal S1x256x1024 .f32) (ix3 u b k)
      = (m ((c : Thread nD τ).loc main_arg0) : S32x256x1024.Idx → EReal) (ix3 (sample t) b k) := by
  obtain ⟨⟨h0, h1, h2⟩, -⟩ := idx_facts t
  have hu : u.val = 0 := by omega
  unfold iblk
  rw [View.read_apply]
  show V m c main_arg0 _ = _
  rw [V_main_arg0]
  refine congrArg _ (funext fun a => Fin.ext ?_)
  match a with
  | ⟨0, _⟩ => show win0_0.index t (0 : Fin 3) * 1 + 1 * u.val = t.val; omega
  | ⟨1, _⟩ => show win0_0.index t (1 : Fin 3) * 256 + 1 * b.val = b.val; omega
  | ⟨2, _⟩ => show win0_0.index t (2 : Fin 3) * 1024 + 1 * k.val = k.val; omega

/-- The weight-mean window holds the whole matrix. -/
theorem wmu_block (c : Dev nD) (t : Fin cfg0.N) (o k : Fin 1024) :
    (iblk m c 1 t : Vec Ideal S1024x1024 .f32) (ix2 o k)
      = (m ((c : Thread nD τ).loc main_arg1) : S1024x1024.Idx → EReal) (ix2 o k) := by
  obtain ⟨-, ⟨h0, h1⟩, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 1024 + 1 * o.val = o.val; omega
  | ⟨1, _⟩ => show win0_1.index t (1 : Fin 2) * 1024 + 1 * k.val = k.val; omega

/-- The weight-spread window holds the whole matrix. -/
theorem wrho_block (c : Dev nD) (t : Fin cfg0.N) (o k : Fin 1024) :
    (iblk m c 2 t : Vec Ideal S1024x1024 .f32) (ix2 o k)
      = (m ((c : Thread nD τ).loc main_arg2) : S1024x1024.Idx → EReal) (ix2 o k) := by
  obtain ⟨-, -, ⟨h0, h1⟩, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 2) * 1024 + 1 * o.val = o.val; omega
  | ⟨1, _⟩ => show win0_2.index t (1 : Fin 2) * 1024 + 1 * k.val = k.val; omega

/-- The bias-mean window holds the whole vector. -/
theorem bmu_block (c : Dev nD) (t : Fin cfg0.N) (o : Fin 1024) :
    (iblk m c 3 t : Vec Ideal S1024 .f32) (ix1 o)
      = (m ((c : Thread nD τ).loc main_arg3) : S1024.Idx → EReal) (ix1 o) := by
  obtain ⟨-, -, -, h0, -⟩ := idx_facts t
  unfold iblk
  rw [View.read_apply]
  show V m c main_arg3 _ = _
  rw [V_main_arg3]
  refine congrArg _ (funext fun a => Fin.ext ?_)
  match a with
  | ⟨0, _⟩ => show win0_3.index t (0 : Fin 1) * 1024 + 1 * o.val = o.val; omega

/-- The bias-spread window holds the whole vector. -/
theorem brho_block (c : Dev nD) (t : Fin cfg0.N) (o : Fin 1024) :
    (iblk m c 4 t : Vec Ideal S1024 .f32) (ix1 o)
      = (m ((c : Thread nD τ).loc main_arg4) : S1024.Idx → EReal) (ix1 o) := by
  obtain ⟨-, -, -, -, h0, -⟩ := idx_facts t
  unfold iblk
  rw [View.read_apply]
  show V m c main_arg4 _ = _
  rw [V_main_arg4]
  refine congrArg _ (funext fun a => Fin.ext ?_)
  match a with
  | ⟨0, _⟩ => show win0_4.index t (0 : Fin 1) * 1024 + 1 * o.val = o.val; omega

/-- The weight-noise window at point t holds sample t's slab. -/
theorem epsw_block (c : Dev nD) (t : Fin cfg0.N) (u : Fin 1) (o k : Fin 1024) :
    (iblk m c 5 t : Vec Ideal S1x1024x1024 .f32) (ix3 u o k)
      = (m ((c : Thread nD τ).loc main_arg5) : S32x1024x1024.Idx → EReal) (ix3 (sample t) o k) := by
  obtain ⟨-, -, -, -, -, ⟨h0, h1, h2⟩, -⟩ := idx_facts t
  have hu : u.val = 0 := by omega
  unfold iblk
  rw [View.read_apply]
  show V m c main_arg5 _ = _
  rw [V_main_arg5]
  refine congrArg _ (funext fun a => Fin.ext ?_)
  match a with
  | ⟨0, _⟩ => show win0_5.index t (0 : Fin 3) * 1 + 1 * u.val = t.val; omega
  | ⟨1, _⟩ => show win0_5.index t (1 : Fin 3) * 1024 + 1 * o.val = o.val; omega
  | ⟨2, _⟩ => show win0_5.index t (2 : Fin 3) * 1024 + 1 * k.val = k.val; omega

/-- The bias noise as the region finds it: the argument laid out with a unit middle axis. -/
theorem noise_array (c : Dev nD) :
    (V m c main_v0 : S32x1x1024.Idx → EReal)
      = shapeCast S32x1x1024 (m ((c : Thread nD τ).loc main_arg6) : S32x1024.Idx → EReal) shapeCasts_S32x1024_S32x1x1024 := by
  dsimp only [V, hostOps0]
  after_results
  rfl

/-- The bias-noise window at point t holds row t of the bias noise. -/
theorem epsb_block (c : Dev nD) (t : Fin cfg0.N) (u v : Fin 1) (o : Fin 1024) :
    (iblk m c 6 t : Vec Ideal S1x1x1024 .f32) (ix3 u v o)
      = (m ((c : Thread nD τ).loc main_arg6) : S32x1024.Idx → EReal) (ix2 (sample t) o) := by
  obtain ⟨-, -, -, -, -, -, ⟨h0, h1, h2⟩, -⟩ := idx_facts t
  have hu : u.val = 0 := by omega
  have hv : v.val = 0 := by omega
  unfold iblk
  rw [View.read_apply]
  show (V m c main_v0 : S32x1x1024.Idx → EReal) _ = _
  rw [noise_array]
  refine shapeCast_apply (m ((c : Thread nD τ).loc main_arg6) : S32x1024.Idx → EReal) shapeCasts_S32x1024_S32x1x1024 _
    (ix2 (sample t) o) ?_
  show (S32x1024.rowMajor (ix2 (sample t) o)).val
    = (S32x1x1024.rowMajor (((cfg0.win 6).blk t).view.emb (ix3 u v o))).val
  rw [Shape.rowMajor_val_two, Shape.rowMajor_val_three]
  show t.val * 1024 + o.val
    = ((win0_6.index t (0 : Fin 3) * 1 + 1 * u.val) * 1 + (win0_6.index t (1 : Fin 3) * 1 + 1 * v.val)) * 1024
      + (win0_6.index t (2 : Fin 3) * 1024 + 1 * o.val)
  rw [h0, h1, h2, hu, hv]
  omega

/-! ## What a point writes back, the cover, and the run -/

/-- The result, of the argument arrays as launched. -/
abbrev final (c : Dev nD) : S32x256x1024.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- WHAT POINT t WRITES BACK is slab t of `result`. -/
theorem flushed_eq (c : Dev nD) (t : Fin cfg0.N) :
    (dats m 0 c).flushed 7 t = ((cfg0.win 7).blk t).view.read (Elt Ideal) (final m c) := by
  rw [Cert.KernelIdeal.Value.flushed7]
  funext y
  obtain ⟨u, b, o, rfl⟩ : ∃ (u : Fin 1) (b : Fin 256) (o : Fin 1024), y = ix3 u b o := ⟨y 0, y 1, y 2, eq_ix3 y⟩
  obtain ⟨-, -, -, -, -, -, -, ⟨h0, h1, h2⟩⟩ := idx_facts t
  have hu : u.val = 0 := by omega
  have he : ((cfg0.win 7).blk t).view.emb (ix3 u b o) = ix3 (sample t) b o :=
    funext fun a => Fin.ext (by
      match a with
      | ⟨0, _⟩ => show win0_7.index t (0 : Fin 3) * 1 + 1 * u.val = t.val; omega
      | ⟨1, _⟩ => show win0_7.index t (1 : Fin 3) * 256 + 1 * b.val = b.val; omega
      | ⟨2, _⟩ => show win0_7.index t (2 : Fin 3) * 1024 + 1 * o.val = o.val; omega)
  show out0_7 (iblk m c 0 t) (iblk m c 1 t) (iblk m c 2 t) (iblk m c 3 t) (iblk m c 4 t) (iblk m c 5 t) (iblk m c 6 t) (ix3 u b o)
    = final m c (((cfg0.win 7).blk t).view.emb (ix3 u b o))
  rw [he]
  refine Eq.trans ?_ (result_apply _ _ _ _ _ _ _ (sample t) b o).symm
  refine (KernelBlock.out_entry (iblk m c 0 t) (iblk m c 1 t) (iblk m c 2 t) (iblk m c 3 t) (iblk m c 4 t) (iblk m c 5 t)
    (iblk m c 6 t) u b o).trans ?_
  simp only [input_block, wmu_block, wrho_block, bmu_block, brho_block, epsw_block, epsb_block]

/-- An index of the result array is in point t's slab iff each coordinate is in the slab's range on its axis. -/
theorem mem_blk (t : Fin cfg0.N) (i : S32x256x1024.Idx) :
    i ∈ ((cfg0.win 7).blk t).view.set ↔ ∀ a : Fin 3, win0_7.index t a * S1x256x1024.size a ≤ (i a).val
      ∧ (i a).val < win0_7.index t a * S1x256x1024.size a + S1x256x1024.size a := by
  show i ∈ ((View.whole main_v1).slice (win0_7.rect t)).set ↔ _
  rw [View.set_slice_whole, Rect.mem_set_unit]
  exact Iff.rfl

/-- Every index of the result array lies in the slab of the point numbered by its sample coordinate. -/
theorem cover (i : S32x256x1024.Idx) :
    ∃ t : Fin cfg0.N, (cfg0.win 7).flush t = true ∧ i ∈ ((cfg0.win 7).blk t).view.set := by
  have hs : (i 0).val < 32 := (i 0).isLt
  have hb : (i 1).val < 256 := (i 1).isLt
  have ho : (i 2).val < 1024 := (i 2).isLt
  let t : Fin cfg0.N := ⟨(i 0).val, lt_of_lt_of_eq hs N_0.symm⟩
  obtain ⟨-, -, -, -, -, -, -, ⟨h0, h1, h2⟩⟩ := idx_facts t
  have ht : t.val = (i 0).val := rfl
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 1024 ≤ (i 2).val ∧ (i 2).val < win0_7.index t (2 : Fin 3) * 1024 + 1024; omega

/-- THE RESULT ARRAY after the run is `result` of the argument arrays. -/
theorem arrAt_final (c : Dev nD) : (dats m 0 c).arrAt 7 cfg0.N = final m c :=
  (dats m 0 c).arrAt_eq_of_cover 7 (final m c) (fun t _ => flushed_eq m c t) cover

/-- The kernel's run, read: the result array at `result` of the arguments, the arguments unchanged. -/
theorem run : θ_run defs (onTc (τ := τ) (main (F := Ideal))) ⟨m, fun _ => 0, ρ⟩ fun r => ∀ c : Dev nD,
      r.2.mem ((c : Thread nD τ).loc main_v1) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (arrAt_final m c), (h c).2⟩)
    (Cert.KernelIdeal.Value.run_blocks m ρ)

end Cert.DenseVar.KernelValue

end
-- ==== Proof.RefValue.lean ====
/-
  The reference's result, read at an index, is `result` of its arguments.

  The reference forms softplus(ρ) and softplus(γ) once, repeats the weight matrices along a new leading sample axis,
  forms  μ + softplus(ρ)·ε  for every sample and  β + softplus(γ)·η  for every sample, contracts the input's last axis
  against the weights' last axis sample by sample, and adds the bias row to every batch row.  Reading each repeated
  array at an index only renames coordinates, so at (s, b, o) the result is the sum over k of
  x(s, b, k) · (μ(o, k) + softplus(ρ(o, k)) · ε(s, o, k)), plus β(o) + softplus(γ(o)) · η(s, o).
-/
import proofs.«178021_j62577673502970_2_alg».proof.Proof.Gen.ReferenceIdeal.Read
import proofs.«178021_j62577673502970_2_alg».proof.Proof.Spec

noncomputable section

open scoped BigOperators

namespace Cert.DenseVar.RefValue

open Cert.ReferenceIdeal Cert.ReferenceIdeal.Read Idealize.ShloMosaic Idealize.ShloMosaic.ValueIdx Cert.DenseVar

/-- The reference's softplus of the weight spread parameter, at an entry. -/
theorem softplus_matrix (x2 : (⟨S1024x1024, .f32⟩ : BufTy).Contents (Elt Ideal)) (i : S1024x1024.Idx) :
    val_main_v0 (F := Ideal) x2 i = softplus (x2 i) := by
  simp only [val_main_v0_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply]
  exact softplus_of_neg (x2 i)

/-- The reference's softplus of the bias spread parameter, at an entry. -/
theorem softplus_vector (x4 : (⟨S1024, .f32⟩ : BufTy).Contents (Elt Ideal)) (i : S1024.Idx) :
    val_main_v1 (F := Ideal) x4 i = softplus (x4 i) := by
  simp only [val_main_v1_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply]
  exact softplus_of_neg (x4 i)

/-- The sampled weight of sample s at (o, k): the repeated arrays read back at their own coordinates. -/
theorem weight_entry (x1 x2 : (⟨S1024x1024, .f32⟩ : BufTy).Contents (Elt Ideal)) (x5 : (⟨S32x1024x1024, .f32⟩ : BufTy).Contents (Elt Ideal))
    (s : Fin 32) (o k : Fin 1024) :
    val_main_v7 (F := Ideal) x1 x2 x5 (ix3 s o k) = weight (x1 (ix2 o k)) (x2 (ix2 o k)) (x5 (ix3 s o k)) := by
  rw [val_main_v7_apply, val_main_v6_apply, val_main_v2_apply, val_main_v5_apply, val_main_v4_apply, val_main_v3_apply,
    softplus_matrix]
  have e1 : idx_main_v2 (idx_main_v6 (ix3 s o k)) = ix2 o k :=
    funext fun a => Fin.ext (by match a with | ⟨0, _⟩ => rfl | ⟨1, _⟩ => rfl)
  have e2 : idx_main_v3 (idx_main_v4 (ix3 s o k)) = ix2 o k :=
    funext fun a => Fin.ext (by match a with | ⟨0, _⟩ => rfl | ⟨1, _⟩ => rfl)
  rw [e1, e2]
  rfl

/-- The sampled bias of sample s at o. -/
theorem bias_entry (x3 x4 : (⟨S1024, .f32⟩ : BufTy).Contents (Elt Ideal)) (x6 : (⟨S32x1024, .f32⟩ : BufTy).Contents (Elt Ideal))
    (s : Fin 32) (o : Fin 1024) :
    val_main_v13 (F := Ideal) x3 x4 x6 (ix2 s o) = weight (x3 (ix1 o)) (x4 (ix1 o)) (x6 (ix2 s o)) := by
  rw [val_main_v13_apply, val_main_v12_apply, val_main_v8_apply, val_main_v11_apply, val_main_v10_apply, val_main_v9_apply,
    softplus_vector]
  have e1 : idx_main_v8 (idx_main_v12 (ix2 s o)) = ix1 o :=
    funext fun a => Fin.ext (by match a with | ⟨0, _⟩ => rfl)
  have e2 : idx_main_v9 (idx_main_v10 (ix2 s o)) = ix1 o :=
    funext fun a => Fin.ext (by match a with | ⟨0, _⟩ => rfl)
  rw [e1, e2]
  rfl

/-- THE REFERENCE IS `result`: its last stage, as a whole array. -/
theorem reference_eq (x0 : (⟨S32x256x1024, .f32⟩ : BufTy).Contents (Elt Ideal)) (x1 x2 : (⟨S1024x1024, .f32⟩ : BufTy).Contents (Elt Ideal))
    (x3 x4 : (⟨S1024, .f32⟩ : BufTy).Contents (Elt Ideal)) (x5 : (⟨S32x1024x1024, .f32⟩ : BufTy).Contents (Elt Ideal))
    (x6 : (⟨S32x1024, .f32⟩ : BufTy).Contents (Elt Ideal)) :
    val_main_v17 (F := Ideal) x0 x1 x2 x3 x4 x5 x6 = result x0 x1 x2 x3 x4 x5 x6 := by
  funext j
  obtain ⟨s, b, o, rfl⟩ : ∃ (s : Fin 32) (b : Fin 256) (o : Fin 1024), j = ix3 s b o := ⟨j 0, j 1, j 2, eq_ix3 j⟩
  rw [val_main_v17_apply, val_main_v14_apply, val_main_v16_apply, val_main_v15_apply, result_apply]
  have el : ∀ k : Fin 1024, lidx_main_v14 (ix3 s b o) k = ix3 s b k := fun k =>
    funext fun a => Fin.ext (by match a with | ⟨0, _⟩ => rfl | ⟨1, _⟩ => rfl | ⟨2, _⟩ => rfl)
  have er : ∀ k : Fin 1024, ridx_main_v14 (ix3 s b o) k = ix3 s o k := fun k =>
    funext fun a => Fin.ext (by match a with | ⟨0, _⟩ => rfl | ⟨1, _⟩ => rfl | ⟨2, _⟩ => rfl)
  have eb : idx_main_v15 (idx_main_v16 (ix3 s b o)) = ix2 s o :=
    funext fun a => Fin.ext (by match a with | ⟨0, _⟩ => rfl | ⟨1, _⟩ => rfl)
  rw [eb, bias_entry]
  simp only [el, er, weight_entry]
  rfl

end Cert.DenseVar.RefValue

end
-- ==== Proof.lean ====
/-
  A variational dense layer: for 32 samples, a [256, 1024] input slab is multiplied by the transpose of a sampled
  [1024, 1024] weight matrix  W_s = μ + softplus(ρ) · ε_s  and a sampled bias row  c_s = β + softplus(γ) · η_s  is added
  to every batch row:   out(s, b, o) = Σ_k x(s, b, k) · W_s(o, k) + c_s(o).

  The kernel computes one sample per grid point (the products taken after a change of float format that is the
  identity on the extended reals); the reference repeats the parameter arrays along the sample axis and contracts
  all samples at once.  Both spell softplus as  max(r, 0) + log1p(exp(−|r|))  behind a guard that is never taken on
  the extended reals.  Entry by entry the two are the same sum of the same products in the same arrangement, so
  no finiteness of the inputs is used: the kernel's result array is `DenseVar.result` of the arguments
  (Proof/KernelBlock.lean, Proof/KernelValue.lean), and so is the reference's (Proof/RefValue.lean).

  The three frames are the generated frame runs (the reference's is its generated run with the result dropped);
  the kernel's idealization rewrote no operation, so there is nothing to preserve.
-/
import proofs.«178021_j62577673502970_2_alg».proof.Defs
import proofs.«178021_j62577673502970_2_alg».proof.Proof.Gen.Kernel
import proofs.«178021_j62577673502970_2_alg».proof.Proof.Gen.Kernel.Skeleton
import proofs.«178021_j62577673502970_2_alg».proof.Proof.Gen.Kernel.Launch
import proofs.«178021_j62577673502970_2_alg».proof.Proof.Gen.Kernel.Points
import proofs.«178021_j62577673502970_2_alg».proof.Proof.Gen.Kernel.Frame
import proofs.«178021_j62577673502970_2_alg».proof.Proof.Gen.KernelIdeal
import proofs.«178021_j62577673502970_2_alg».proof.Proof.Gen.KernelIdeal.Skeleton
import proofs.«178021_j62577673502970_2_alg».proof.Proof.Gen.KernelIdeal.Launch
import proofs.«178021_j62577673502970_2_alg».proof.Proof.Gen.KernelIdeal.Points
import proofs.«178021_j62577673502970_2_alg».proof.Proof.Gen.KernelIdeal.Frame
import proofs.«178021_j62577673502970_2_alg».proof.Proof.Gen.ReferenceIdeal
import proofs.«178021_j62577673502970_2_alg».proof.Proof.Gen.Pre_finite_inputs
import proofs.«178021_j62577673502970_2_alg».proof.Proof.Gen.KernelIdeal.Value
import proofs.«178021_j62577673502970_2_alg».proof.Proof.Gen.ReferenceIdeal.Run
import proofs.«178021_j62577673502970_2_alg».proof.Proof.Gen.ReferenceIdeal.Read
import proofs.«178021_j62577673502970_2_alg».proof.Proof.KernelValue
import proofs.«178021_j62577673502970_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- From arguments that agree, the kernel's result array and the reference's both end at `DenseVar.result` of them. -/
theorem algebraic : Cert.algebraic_KernelIdeal_ReferenceIdeal := by
  intro m ρ m' ρ' _ hagree
  refine ⟨fun c => Cert.DenseVar.KernelValue.final m c, Cert.DenseVar.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v17_eq, Cert.DenseVar.RefValue.reference_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
